-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S262144 : Shape := ⟨1, ![262144]⟩
abbrev S128 : Shape := ⟨1, ![128]⟩
abbrev S500000x128 : Shape := ⟨2, ![500000, 128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S262144 : S_.BroadcastsInDim S262144 (![] : Fin 0 → Fin S262144.rank)
  reducesTo_S262144_S_d0 : S262144.ReducesTo [0] S_
  bcast_S_S128 : S_.BroadcastsInDim S128 (![] : Fin 0 → Fin S128.rank)
  reducesTo_S128_S_d0 : S128.ReducesTo [0] S_

variable [Facts]

def fn {F : FTy → Type} [FloatOps F] (main_arg0 : FVec F S500000 .f32) (main_arg1 : FVec F S262144 .f32) (main_arg2 : FVec F S128 .f32) (main_arg3 : IVec S500000 32) (main_arg4 : IVec S500000x128 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S500000 : Shape := ⟨1, ![500000]⟩
abbrev S262144 : Shape := ⟨1, ![262144]⟩
abbrev S128 : Shape := ⟨1, ![128]⟩
abbrev S500000x128 : Shape := ⟨2, ![500000, 128]⟩
abbrev S_ : Shape := ⟨0, ![]⟩
abbrev S500000x128x1 : Shape := ⟨3, ![500000, 128, 1]⟩
abbrev S500000x1 : Shape := ⟨2, ![500000, 1]⟩
abbrev S1x128 : Shape := ⟨2, ![1, 128]⟩
abbrev S10000x128 : Shape := ⟨2, ![10000, 128]⟩
abbrev S10000x1 : Shape := ⟨2, ![10000, 1]⟩
abbrev S262144x128 : Shape := ⟨2, ![262144, 128]⟩
abbrev S262144x1 : Shape := ⟨2, ![262144, 1]⟩

abbrev nBuf : Space → Nat
  | .hbm => 48
  | .vmem => 7
  | .smem => 0
  | _ => 0

abbrev bufTy : (tb : Table) → Fin (tcTables nBuf tb) → BufTy
  | .hbm, ⟨0, _⟩ => ⟨S500000, .f32⟩
  | .hbm, ⟨1, _⟩ => ⟨S262144, .f32⟩
  | .hbm, ⟨2, _⟩ => ⟨S128, .f32⟩
  | .hbm, ⟨3, _⟩ => ⟨S500000, .i32⟩
  | .hbm, ⟨4, _⟩ => ⟨S500000x128, .i32⟩
  | .hbm, ⟨5, _⟩ => ⟨S_, .i32⟩
  | .hbm, ⟨6, _⟩ => ⟨S500000x128, .i32⟩
  | .hbm, ⟨7, _⟩ => ⟨S500000x128, .i1⟩
  | .hbm, ⟨8, _⟩ => ⟨S_, .i32⟩
  | .hbm, ⟨9, _⟩ => ⟨S500000x128, .i32⟩
  | .hbm, ⟨10, _⟩ => ⟨S500000x128, .i32⟩
  | .hbm, ⟨11, _⟩ => ⟨S500000x128, .i32⟩
  | .hbm, ⟨12, _⟩ => ⟨S500000x128x1, .i32⟩
  | .hbm, ⟨13, _⟩ => ⟨S500000x128, .f32⟩
  | .hbm, ⟨14, _⟩ => ⟨S500000x1, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .i1⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S500000x128, .f32⟩
  | .hbm, ⟨32, _⟩ => ⟨S_, .f32⟩
  | .hbm, ⟨33, _⟩ => ⟨S262144x128, .f32⟩
  | .hbm, ⟨34, _⟩ => ⟨S500000x1, .i32⟩
  | .hbm, ⟨35, _⟩ => ⟨S262144x128, .f32⟩
  | .hbm, ⟨36, _⟩ => ⟨S_, .f32⟩
  | .hbm, ⟨37, _⟩ => ⟨S500000, .f32⟩
  | .hbm, ⟨38, _⟩ => ⟨S_, .f32⟩
  | .hbm, ⟨39, _⟩ => ⟨S262144, .f32⟩
  | .hbm, ⟨40, _⟩ => ⟨S500000x1, .i32⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144x1, .f32⟩
  | .hbm, ⟨46, _⟩ => ⟨S262144x128, .f32⟩
  | .hbm, ⟨47, _⟩ => ⟨S262144x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S1x128, .f32⟩
  | .local _ .vmem, ⟨5, _⟩ => ⟨S10000x128, .f32⟩
  | .local _ .vmem, ⟨6, _⟩ => ⟨S10000x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S500000x128 : S_.BroadcastsInDim S500000x128 (![] : Fin 0 → Fin S500000x128.rank)
  bcast_S500000x128_S500000x128x1_0_1 : S500000x128.BroadcastsInDim S500000x128x1 (![0, 1] : Fin 2 → Fin S500000x128x1.rank)
  shapeCasts_S500000_S500000x1 : S500000.ShapeCasts S500000x1
  bcast_S_S128 : S_.BroadcastsInDim S128 (![] : Fin 0 → Fin S128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S262144x128 : S_.BroadcastsInDim S262144x128 (![] : Fin 0 → Fin S262144x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  gather_S262144_S500000x128x1_S500000x128_n_0_n_n_0_2_1_wf : GatherDims.WF S262144 S500000x128x1 S500000x128 [] [0] [] [0] [] 2 ![1]
  scatter_S262144x128_S500000x1_S500000x128_1_0_0_1_wf : ScatterDims.WF S262144x128 S500000x1 S500000x128 [1] [0] [0] 1
  scatter_S262144_S500000x1_S500000_n_0_0_1_wf : ScatterDims.WF S262144 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)

variable [Facts₀]

def gather_S262144_S500000x128x1_S500000x128_n_0_n_n_0_2_1 : GatherDims S262144 S500000x128x1 S500000x128 where
  offsetDims := []
  collapsedSliceDims := [0]
  operandBatchingDims := []
  startIndicesBatchingDims := []
  startIndexMap := [0]
  indexVectorDim := 2
  sliceSizes := ![1]
  wf := gather_S262144_S500000x128x1_S500000x128_n_0_n_n_0_2_1_wf
def scatter_S262144x128_S500000x1_S500000x128_1_0_0_1 : ScatterDims S262144x128 S500000x1 S500000x128 where
  updateWindowDims := [1]
  insertedWindowDims := [0]
  scatterDimsToOperandDims := [0]
  indexVectorDim := 1
  wf := scatter_S262144x128_S500000x1_S500000x128_1_0_0_1_wf
def scatter_S262144_S500000x1_S500000_n_0_0_1 : ScatterDims S262144 S500000x1 S500000 where
  updateWindowDims := []
  insertedWindowDims := [0]
  scatterDimsToOperandDims := [0]
  indexVectorDim := 1
  wf := scatter_S262144_S500000x1_S500000_n_0_0_1_wf

abbrev win0_0 : Pipeline.Window sig grid0 :=
  Pipeline.Window.ofSpec (Memref.whole main_v6) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000 : Shape := ⟨1, ![500000]⟩
abbrev S262144 : Shape := ⟨1, ![262144]⟩
abbrev S128 : Shape := ⟨1, ![128]⟩
abbrev S500000x128 : Shape := ⟨2, ![500000, 128]⟩
abbrev S_ : Shape := ⟨0, ![]⟩
abbrev S500000x128x1 : Shape := ⟨3, ![500000, 128, 1]⟩
abbrev S500000x1 : Shape := ⟨2, ![500000, 1]⟩
abbrev S1x128 : Shape := ⟨2, ![1, 128]⟩
abbrev S262144x128 : Shape := ⟨2, ![262144, 128]⟩
abbrev S262144x1 : Shape := ⟨2, ![262144, 1]⟩

abbrev nBuf : Space → Nat
  | .hbm => 52
  | .vmem => 0
  | .smem => 0
  | _ => 0

abbrev bufTy : (tb : Table) → Fin (tcTables nBuf tb) → BufTy
  | .hbm, ⟨0, _⟩ => ⟨S500000, .f32⟩
  | .hbm, ⟨1, _⟩ => ⟨S262144, .f32⟩
  | .hbm, ⟨2, _⟩ => ⟨S128, .f32⟩
  | .hbm, ⟨3, _⟩ => ⟨S500000, .i32⟩
  | .hbm, ⟨4, _⟩ => ⟨S500000x128, .i32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .i1⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S500000x128, .i32⟩
  | .hbm, ⟨21, _⟩ => ⟨S500000x128, .i1⟩
  | .hbm, ⟨22, _⟩ => ⟨S_, .i32⟩
  | .hbm, ⟨23, _⟩ => ⟨S500000x128, .i32⟩
  | .hbm, ⟨24, _⟩ => ⟨S500000x128, .i32⟩
  | .hbm, ⟨25, _⟩ => ⟨S500000x128, .i32⟩
  | .hbm, ⟨26, _⟩ => ⟨S500000x128x1, .i32⟩
  | .hbm, ⟨27, _⟩ => ⟨S500000x128, .f32⟩
  | .hbm, ⟨28, _⟩ => ⟨S500000x1, .f32⟩
  | .hbm, ⟨29, _⟩ => ⟨S500000x128, .f32⟩
  | .hbm, ⟨30, _⟩ => ⟨S500000x128, .f32⟩
  | .hbm, ⟨31, _⟩ => ⟨S1x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S500000x128, .f32⟩
  | .hbm, ⟨36, _⟩ => ⟨S_, .f32⟩
  | .hbm, ⟨37, _⟩ => ⟨S262144x128, .f32⟩
  | .hbm, ⟨38, _⟩ => ⟨S500000x1, .i32⟩
  | .hbm, ⟨39, _⟩ => ⟨S262144x128, .f32⟩
  | .hbm, ⟨40, _⟩ => ⟨S_, .f32⟩
  | .hbm, ⟨41, _⟩ => ⟨S500000, .f32⟩
  | .hbm, ⟨42, _⟩ => ⟨S_, .f32⟩
  | .hbm, ⟨43, _⟩ => ⟨S262144, .f32⟩
  | .hbm, ⟨44, _⟩ => ⟨S500000x1, .i32⟩
  | .hbm, ⟨45, _⟩ => ⟨S262144, .f32⟩
  | .hbm, ⟨46, _⟩ => ⟨S_, .f32⟩
  | .hbm, ⟨47, _⟩ => ⟨S262144, .f32⟩
  | .hbm, ⟨48, _⟩ => ⟨S262144, .f32⟩
  | .hbm, ⟨49, _⟩ => ⟨S262144x1, .f32⟩
  | .hbm, ⟨50, _⟩ => ⟨S262144x128, .f32⟩
  | .hbm, ⟨51, _⟩ => ⟨S262144x128, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S_S500000x128 : S_.BroadcastsInDim S500000x128 (![] : Fin 0 → Fin S500000x128.rank)
  bcast_S500000x128_S500000x128x1_0_1 : S500000x128.BroadcastsInDim S500000x128x1 (![0, 1] : Fin 2 → Fin S500000x128x1.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S262144x128 : S_.BroadcastsInDim S262144x128 (![] : Fin 0 → Fin S262144x128.rank)
  bcast_S_S500000 : S_.BroadcastsInDim S500000 (![] : Fin 0 → Fin S500000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  gather_S262144_S500000x128x1_S500000x128_n_0_n_n_0_2_1_wf : GatherDims.WF S262144 S500000x128x1 S500000x128 [] [0] [] [0] [] 2 ![1]
  scatter_S262144x128_S500000x1_S500000x128_1_0_0_1_wf : ScatterDims.WF S262144x128 S500000x1 S500000x128 [1] [0] [0] 1
  scatter_S262144_S500000x1_S500000_n_0_0_1_wf : ScatterDims.WF S262144 S500000x1 S500000 [] [0] [0] 1

variable [Facts₀]

def gather_S262144_S500000x128x1_S500000x128_n_0_n_n_0_2_1 : GatherDims S262144 S500000x128x1 S500000x128 where
  offsetDims := []
  collapsedSliceDims := [0]
  operandBatchingDims := []
  startIndicesBatchingDims := []
  startIndexMap := [0]
  indexVectorDim := 2
  sliceSizes := ![1]
  wf := gather_S262144_S500000x128x1_S500000x128_n_0_n_n_0_2_1_wf
def scatter_S262144x128_S500000x1_S500000x128_1_0_0_1 : ScatterDims S262144x128 S500000x1 S500000x128 where
  updateWindowDims := [1]
  insertedWindowDims := [0]
  scatterDimsToOperandDims := [0]
  indexVectorDim := 1
  wf := scatter_S262144x128_S500000x1_S500000x128_1_0_0_1_wf
def scatter_S262144_S500000x1_S500000_n_0_0_1 : ScatterDims S262144 S500000x1 S500000 where
  updateWindowDims := []
  insertedWindowDims := [0]
  scatterDimsToOperandDims := [0]
  indexVectorDim := 1
  wf := scatter_S262144_S500000x1_S500000_n_0_0_1_wf

class Facts : Prop extends Facts₀ where

variable [Facts]
-- ==== Proof.RegionInputs.lean ====
/-
  The three arrays the kernel's grid reads, as the host operations before it leave them.

  • the predecessor times: the output-event times gathered at the predecessor ids, a negative id first wrapped
    by adding the table's length (`predTimes`);
  • the event times, the vector [500000] viewed as a column [500000, 1];
  • the negated decay rates: softplus of the raw rates (`rates`: max(x, 0) + log1p(exp(−|x|)), the program's own
    guard for an x that is not a number kept as the program has it), negated, the vector [128] viewed as a row [1, 128].
  The gather and the softplus are named here as functions of the argument arrays and never opened: the reference
  applies the same operations to the same arrays.
-/
import proofs.«119744_j34857954574530_2_alg».proof.Proof.Gen.KernelIdeal.Frame
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The predecessor time of every (event, filter): the output-event times `x1` gathered at the ids `x4`, an id below
    zero counted from the table's end. -/
def predTimes (x1 : FVec F S262144 .f32) (x4 : IVec S500000x128 32) : FVec F S500000x128 .f32 :=
  Host.gather gather_S262144_S500000x128x1_S500000x128_n_0_n_n_0_2_1 x1
    (broadcastInDim S500000x128x1 ![0, 1] bcast_S500000x128_S500000x128x1_0_1
      (select (cmpi .slt x4 (broadcastInDim S500000x128 ![] bcast_S_S500000x128 (constantI S_ 32 0#32)))
        (addi x4 (broadcastInDim S500000x128 ![] bcast_S_S500000x128 (constantI S_ 32 262144#32))) x4))

/-- The zero vector the softplus compares and adds with. -/
abbrev zeros128 : FVec F S128 .f32 := broadcastInDim S128 ![] bcast_S_S128 (constant (F := F) S_ .f32 0x00000000#32)

/-- The decay rate of every filter: softplus of the raw rate, as the program computes it. -/
def rates (x2 : FVec F S128 .f32) : FVec F S128 .f32 :=
  select (cmpf .une (subf x2 zeros128) (subf x2 zeros128)) (addf x2 zeros128)
    (addf (maximumf x2 zeros128) (Host.log1p (Host.exp (Host.negf (Host.absf (subf x2 zeros128))))))

variable (m : (ℓ : Loc nD τ sig) → Buf (Elt F) ℓ)

/-- The first window's array holds the predecessor times. -/
theorem V_pred (c : Dev nD) : (V m c main_v6 : S500000x128.Idx → Elt F .f32)
    = predTimes (m ((c : Thread nD τ).loc main_arg1)) (m ((c : Thread nD τ).loc main_arg4)) := by
  dsimp only [Gen.V, Gen.V0]
  simp only [Gen.hostOps0, Gen.hostOps0_1, Gen.hostOps0_2, List.flatten_cons, List.flatten_nil, List.append_nil, List.cons_append, List.nil_append]
  after_results
  rfl

/-- The second window's array holds the event times as a column. -/
theorem V_times (c : Dev nD) : (V m c main_v7 : S500000x1.Idx → Elt F .f32)
    = shapeCast S500000x1 (m ((c : Thread nD τ).loc main_arg0)) shapeCasts_S500000_S500000x1 := by
  dsimp only [Gen.V, Gen.V0]
  simp only [Gen.hostOps0, Gen.hostOps0_1, Gen.hostOps0_2, List.flatten_cons, List.flatten_nil, List.append_nil, List.cons_append, List.nil_append]
  after_results
  rfl

set_option maxRecDepth 8192 in
set_option maxHeartbeats 2000000 in
/-- The third window's array holds the negated rates as a row. -/
theorem V_negrates (c : Dev nD) : (V m c main_v10 : S1x128.Idx → Elt F .f32)
    = shapeCast S1x128 (Host.negf (rates (m ((c : Thread nD τ).loc main_arg2)))) shapeCasts_S128_S1x128 := by
  dsimp only [Gen.V, Gen.V0]
  simp only [Gen.hostOps0, Gen.hostOps0_1, Gen.hostOps0_2, List.flatten_cons, List.flatten_nil, List.append_nil, List.cons_append, List.nil_append]
  after_results_simp
  rfl

end Cert.KernelIdeal.Hand

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.BlockWeight.lean ====
/-
  What the kernel body stores, read at one entry of its block.

  The body loads a [10000, 128] block of predecessor times, a [10000, 1] column of event times and the [1, 128] row
  of negated decay rates, broadcasts the column along the lanes and the row down the rows, subtracts, multiplies
  and exponentiates. At row `r`, lane `l` of the block the stored value is therefore
  `exp (row (0, l) · (block (r, l) − column (r, 0)))`.
-/
import proofs.«119744_j34857954574530_2_alg».proof.Proof.Gen.KernelIdeal.Skeleton
import proofs.«119744_j34857954574530_2_alg».proof.Proof.LibKeepdims
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen

/-- The stored value at row `r`, lane `l`: the row of negated rates at lane `l`, times the block's entry less the
    column's entry of row `r`, exponentiated. -/
theorem stored_ix2 (x0 : Vec Ideal S10000x128 .f32) (x1 : Vec Ideal S10000x1 .f32) (x2 : Vec Ideal S1x128 .f32)
    (r : Fin 10000) (l : Fin 128) :
    k0_pay1 (F := Ideal) x0 x1 x2 (ix2 r l) = Ideal.exp (x2 (ix2 (0 : Fin 1) l) * (x0 (ix2 r l) - x1 (ix2 r (0 : Fin 1)))) := by
  unfold k0_pay1
  show Ideal.exp (broadcastTo S10000x128 (shapeCast S1x128 x2 shapeCasts_S1x128_S1x128) broadcasts_S1x128_S10000x128 (ix2 r l)
      * (shapeCast S10000x128 x0 shapeCasts_S10000x128_S10000x128 (ix2 r l)
        - broadcastTo S10000x128 (shapeCast S10000x1 x1 shapeCasts_S10000x1_S10000x1) broadcasts_S10000x1_S10000x128 (ix2 r l))) = _
  rw [shapeCast_self, shapeCast_self, shapeCast_self]
  refine congrArg Ideal.exp ?_
  refine congrArg₂ (· * ·) (broadcastTo_1b_ab_apply x2 broadcasts_S1x128_S10000x128 r l) ?_
  exact congrArg (x0 (ix2 r l) - ·) (Cert.Keepdims.broadcastTo_a1_ab_apply x1 broadcasts_S10000x1_S10000x128 r l)

/-- The same at any index `y` of the block, the column and the row read at indices `y1`, `y2` that share `y`'s row and
    lane (their other coordinate is the unit axis's only one). -/
theorem stored_at (x0 : Vec Ideal S10000x128 .f32) (x1 : Vec Ideal S10000x1 .f32) (x2 : Vec Ideal S1x128 .f32)
    (y : S10000x128.Idx) (y1 : S10000x1.Idx) (y2 : S1x128.Idx)
    (hrow : (y1 0).val = (y 0).val) (hlane : (y2 1).val = (y 1).val) :
    k0_pay1 (F := Ideal) x0 x1 x2 y = Ideal.exp (x2 y2 * (x0 y - x1 y1)) := by
  obtain ⟨r, l, rfl⟩ : ∃ (r : Fin 10000) (l : Fin 128), y = ix2 r l := ⟨y 0, y 1, eq_ix2 y⟩
  have e1 : y1 = ix2 r (0 : Fin 1) := funext fun a => Fin.ext (by
    match a with
    | ⟨0, _⟩ => exact hrow
    | ⟨1, _⟩ => have h : (y1 1).val < 1 := (y1 1).isLt; show (y1 1).val = 0; omega)
  have e2 : y2 = ix2 (0 : Fin 1) l := funext fun a => Fin.ext (by
    match a with
    | ⟨0, _⟩ => have h : (y2 0).val < 1 := (y2 0).isLt; show (y2 0).val = 0; omega
    | ⟨1, _⟩ => exact hlane)
  rw [e1, e2]
  exact stored_ix2 x0 x1 x2 r l

end Cert.KernelIdeal.Hand

end
-- ==== Proof.DecayWeight.lean ====
/-
  The decay weight of one (event, filter) pair, as one function of the three arrays it is computed from.

  An input event `i` of filter `j` has a predecessor time `P (i, j)`, its own time `T i`, and the filter has a decay
  rate `R j`. The weight is `exp (−R j · (P (i, j) − T i))` on the extended reals. Both programs compute exactly this
  number at every (i, j): they differ only in how the row vector of rates and the column vector of event times are
  laid out before the elementwise arithmetic (a reshape and a broadcast inside a block on one side, two broadcasts
  of the whole arrays on the other). No algebraic law is used: the two sides apply the same operations, in the
  same order, to the same three entries.
-/
import Idealize.ShloMosaic.PureOps.Ideal
import Idealize.ShloMosaic.Lib.ValueIdx

noncomputable section

namespace Cert.DecayPool

open Idealize.ShloMosaic Idealize.ShloMosaic.ValueIdx

/-- `weight P T R (i, j) = exp (−R j · (P (i, j) − T i))`: predecessor times `P` over events × filters, event times `T`,
    decay rates `R` per filter. -/
def weight (P : (⟨2, ![500000, 128]⟩ : Shape).Idx → EReal) (T : (⟨1, ![500000]⟩ : Shape).Idx → EReal)
    (R : (⟨1, ![128]⟩ : Shape).Idx → EReal) : (⟨2, ![500000, 128]⟩ : Shape).Idx → EReal :=
  fun i => Ideal.exp (-(R (ix1 (⟨(i 1).val, (i 1).isLt⟩ : Fin 128))) * (P i - T (ix1 (⟨(i 0).val, (i 0).isLt⟩ : Fin 500000))))

/-- The weight at an index given by its two coordinates. -/
theorem weight_ix2 (P : (⟨2, ![500000, 128]⟩ : Shape).Idx → EReal) (T : (⟨1, ![500000]⟩ : Shape).Idx → EReal)
    (R : (⟨1, ![128]⟩ : Shape).Idx → EReal) (p : Fin 500000) (q : Fin 128) :
    weight P T R (ix2 p q) = Ideal.exp (-(R (ix1 q)) * (P (ix2 p q) - T (ix1 p))) := rfl

end Cert.DecayPool

end
-- ==== Proof.GridBlocks.lean ====
/-
  From the blocks the grid writes back to the whole array of weights.

  The grid has 50 points; point `t` reads rows 10000 t … 10000 t + 9999 of the predecessor times and of the event-time
  column, the whole row of negated rates, and writes the same rows of the output. Entry (r, l) of the block it
  writes is the decay weight of event 10000 t + r under filter l, so the block is the restriction to those rows of
  ONE function of the argument arrays (`weights`). The 50 blocks tile the [500000, 128] array — row `i` lies in block
  `i / 10000` — so after the grid the array holds `weights` everywhere.
-/
import proofs.«119744_j34857954574530_2_alg».proof.Proof.Gen.KernelIdeal.Frame
import proofs.«119744_j34857954574530_2_alg».proof.Proof.RegionInputs
import proofs.«119744_j34857954574530_2_alg».proof.Proof.BlockWeight
import proofs.«119744_j34857954574530_2_alg».proof.Proof.DecayWeight
import proofs.«119744_j34857954574530_2_alg».proof.Proof.LibKeepdims
import Idealize.ShloMosaic.Lib.Pipeline.Value
import Idealize.ShloMosaic.Lib.ValueLayout
import Idealize.ShloMosaic.PureOps.Ideal

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.DecayPool

variable (m : (ℓ : Loc nD τ sig) → Buf (Elt Ideal) ℓ)

theorem hz : (![0, 0] : Fin 2 → Nat) = fun _ => 0 := funext fun a => by fin_cases a <;> rfl

/-- The decay weight of every (event, filter), from the argument arrays as launched. -/
def weights (c : Dev nD) : S500000x128.Idx → EReal :=
  weight (predTimes (F := Ideal) (m ((c : Thread nD τ).loc main_arg1)) (m ((c : Thread nD τ).loc main_arg4)))
    (m ((c : Thread nD τ).loc main_arg0)) (rates (F := Ideal) (m ((c : Thread nD τ).loc main_arg2)))

/-- The block indices at every point: the three row-tiled windows are at block row `t`, the row of rates stays at
    its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of the first window's block at point `t` is the predecessor time at row `10000 t + y 0`, lane `y 1`. -/
theorem pred_block (c : Dev nD) (t : Fin cfg0.N) (y : S10000x128.Idx) (i : S500000x128.Idx)
    (h0 : (i 0).val = t.val * 10000 + (y 0).val) (h1 : (i 1).val = (y 1).val) :
    @Eq EReal ((iblk m c 0 t : Vec Ideal S10000x128 .f32) y)
      (predTimes (F := Ideal) (m ((c : Thread nD τ).loc main_arg1)) (m ((c : Thread nD τ).loc main_arg4)) i) := by
  obtain ⟨e00, e01, -⟩ := idx_facts t
  unfold iblk
  rw [View.read_apply]
  show (V m c main_v6 : S500000x128.Idx → EReal) _ = _
  rw [V_pred]
  congr 1
  funext a
  apply Fin.ext
  match a with
  | ⟨0, _⟩ => show win0_0.index t (0 : Fin 2) * 10000 + 1 * (y 0).val = (i 0).val; rw [e00, h0]; omega
  | ⟨1, _⟩ => show win0_0.index t (1 : Fin 2) * 128 + 1 * (y 1).val = (i 1).val; rw [e01, h1]; omega

/-- Entry `y1` of the second window's block at point `t` is the time of event `10000 t + y1 0`. -/
theorem time_block (c : Dev nD) (t : Fin cfg0.N) (y1 : S10000x1.Idx) (p : Fin 500000)
    (h0 : p.val = t.val * 10000 + (y1 0).val) :
    @Eq EReal ((iblk m c 1 t : Vec Ideal S10000x1 .f32) y1) ((m ((c : Thread nD τ).loc main_arg0) : S500000.Idx → EReal) (ix1 p)) := by
  obtain ⟨-, -, e10, e11, -⟩ := idx_facts t
  unfold iblk
  rw [View.read_apply]
  show (V m c main_v7 : S500000x1.Idx → EReal) _ = _
  rw [V_times]
  have hk : ((cfg0.win 1).blk t).view.emb y1 = ix2 p (0 : Fin 1) := funext fun a => Fin.ext (by
    match a with
    | ⟨0, _⟩ => show win0_1.index t (0 : Fin 2) * 10000 + 1 * (y1 0).val = p.val; rw [e10, h0]; omega
    | ⟨1, _⟩ =>
      have h : (y1 1).val < 1 := (y1 1).isLt
      show win0_1.index t (1 : Fin 2) * 1 + 1 * (y1 1).val = 0; rw [e11]; omega)
  rw [hk]
  exact Cert.Keepdims.shapeCast_a_a1_apply _ shapeCasts_S500000_S500000x1 p 0

/-- Entry `y2` of the third window's block, at every point, is the negated rate of filter `y2 1`. -/
theorem negrate_block (c : Dev nD) (t : Fin cfg0.N) (y2 : S1x128.Idx) (q : Fin 128) (h1 : q.val = (y2 1).val) :
    @Eq EReal ((iblk m c 2 t : Vec Ideal S1x128 .f32) y2) (-(rates (F := Ideal) (m ((c : Thread nD τ).loc main_arg2)) (ix1 q))) := by
  obtain ⟨-, -, -, -, e20, e21, -⟩ := idx_facts t
  unfold iblk
  rw [View.read_apply]
  show (V m c main_v10 : S1x128.Idx → EReal) _ = _
  rw [V_negrates]
  have hk : ((cfg0.win 2).blk t).view.emb y2 = ix2 (0 : Fin 1) q := funext fun a => Fin.ext (by
    match a with
    | ⟨0, _⟩ =>
      have h : (y2 0).val < 1 := (y2 0).isLt
      show win0_2.index t (0 : Fin 2) * 1 + 1 * (y2 0).val = 0; rw [e20]; omega
    | ⟨1, _⟩ => show win0_2.index t (1 : Fin 2) * 128 + 1 * (y2 1).val = q.val; rw [e21, h1]; omega)
  rw [hk]
  exact (shapeCast_a_1a_apply _ shapeCasts_S128_S1x128 0 q).trans rfl

/-- What point `t` writes back is block `t` of `weights`. -/
theorem flushed_eq (c : Dev nD) (t : Fin cfg0.N) :
    (dats m 0 c).flushed 3 t = ((cfg0.win 3).blk t).view.read (Elt Ideal) (weights m c) := by
  show (cfg0.win 3).cut (grid0.coords t) ((dats m 0 c).after 3 t) = _
  rw [after0_3]
  unfold out0_3
  rw [View.canon_unit_zero hz]
  simp only [View.ld_unit_zero (S := S10000x128) hz, View.ld_unit_zero (S := S10000x1) hz, View.ld_unit_zero (S := S1x128) hz]
  obtain ⟨-, -, -, -, -, -, e30, e31⟩ := idx_facts t
  funext j
  rw [View.read_apply]
  have hj0 : (j 0).val < 10000 := (j 0).isLt
  have hj1 : (j 1).val < 128 := (j 1).isLt
  have hi0 : ((((cfg0.win 3).blk t).view.emb j) 0).val = t.val * 10000 + (j 0).val := by
    show win0_3.index t (0 : Fin 2) * 10000 + 1 * (j 0).val = _; rw [e30]; omega
  have hi1 : ((((cfg0.win 3).blk t).view.emb j) 1).val = (j 1).val := by
    show win0_3.index t (1 : Fin 2) * 128 + 1 * (j 1).val = _; rw [e31]; omega
  show k0_pay1 (F := Ideal) (iblk m c 0 t) (iblk m c 1 t) (iblk m c 2 t) ((cfg0.win 3).xinj (grid0.coords t) j)
    = weights m c (((cfg0.win 3).blk t).view.emb j)
  refine (stored_at (iblk m c 0 t) (iblk m c 1 t) (iblk m c 2 t) ((cfg0.win 3).xinj (grid0.coords t) j)
    (fun a => match a with | ⟨0, _⟩ => ⟨(j 0).val, hj0⟩ | ⟨1, _⟩ => ⟨0, Nat.one_pos⟩)
    (fun a => match a with | ⟨0, _⟩ => ⟨0, Nat.one_pos⟩ | ⟨1, _⟩ => ⟨(j 1).val, hj1⟩) rfl rfl).trans ?_
  rw [pred_block m c t ((cfg0.win 3).xinj (grid0.coords t) j) (((cfg0.win 3).blk t).view.emb j) hi0 hi1,
    time_block m c t _ ⟨_, ((((cfg0.win 3).blk t).view.emb j) 0).isLt⟩ hi0,
    negrate_block m c t _ ⟨_, ((((cfg0.win 3).blk t).view.emb j) 1).isLt⟩ hi1]
  rfl

/-- An index of the array lies in point `t`'s block iff each coordinate lies in the block's range on its axis. -/
theorem mem_blk (t : Fin cfg0.N) (i : S500000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v11).slice (win0_3.rect t)).set ↔ _
  rw [View.set_slice_whole, Rect.mem_set_unit]
  exact Iff.rfl

/-- Every index of the array lies in the block of the point its row belongs to. -/
theorem covered (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 50 := N_0
  have hlt : (i 0).val / 10000 < cfg0.N := by rw [hN]; omega
  obtain ⟨-, -, -, -, -, -, e30, e31⟩ := idx_facts ⟨(i 0).val / 10000, hlt⟩
  have e30' : win0_3.index ⟨(i 0).val / 10000, hlt⟩ (0 : Fin 2) = (i 0).val / 10000 := e30
  refine ⟨⟨(i 0).val / 10000, hlt⟩, flush0_3 _, ?_⟩
  rw [mem_blk]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e30']; omega
  | ⟨1, _⟩ =>
    show win0_3.index ⟨(i 0).val / 10000, hlt⟩ (1 : Fin 2) * 128 ≤ (i 1).val
      ∧ (i 1).val < win0_3.index ⟨(i 0).val / 10000, hlt⟩ (1 : Fin 2) * 128 + 128
    rw [e31]; omega

/-- After the grid the output array holds the weights of all pairs. -/
theorem weights_array (c : Dev nD) : (dats m 0 c).arrAt 3 cfg0.N = weights m c :=
  (dats m 0 c).arrAt_eq_of_cover 3 (weights m c) (fun t _ => flushed_eq m c t) (covered)

end Cert.KernelIdeal.Hand

end
-- ==== Proof.SegmentMean.lean ====
/-
  The segment mean both programs end with, as ONE function of the segment ids and the weights.

  Row `s` of the result is the sum of the weights of the events whose segment id is `s`, divided by the number of
  such events or by one if there are none: a scatter-add of the weights into zeros, a scatter-add of ones into
  zeros, a maximum with one, and a quotient. Both programs apply exactly these operations, with the same
  constants, to their weights; the function is named here and never opened.

  After the grid, the host operations of the kernel's program compute it from the output array of the grid and
  the segment ids as launched.
-/
import proofs.«119744_j34857954574530_2_alg».proof.Proof.Gen.KernelIdeal.Frame
import Idealize.ShloMosaic.Lib.StableHlo.Run
import Idealize.ShloMosaic.Lib.Pipeline.FrameSuffix

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The mean of the weights `W` over each segment of the ids `seg`, an empty segment's sum divided by one. -/
def pooled (seg : IVec S500000 32) (W : FVec F S500000x128 .f32) : FVec F S262144x128 .f32 :=
  Host.divf
    (Host.scatterAdd scatter_S262144x128_S500000x1_S500000x128_1_0_0_1
      (broadcastInDim S262144x128 ![] bcast_S_S262144x128 (constant (F := F) S_ .f32 0x00000000#32))
      (broadcastInDim S500000x1 ![0] bcast_S500000_S500000x1_0 seg) W)
    (broadcastInDim S262144x128 ![0, 1] bcast_S262144x1_S262144x128_0_1
      (broadcastInDim S262144x1 ![0] bcast_S262144_S262144x1_0
        (maximumf
          (Host.scatterAdd scatter_S262144_S500000x1_S500000_n_0_0_1
            (broadcastInDim S262144 ![] bcast_S_S262144 (constant (F := F) S_ .f32 0x00000000#32))
            (broadcastInDim S500000x1 ![0] bcast_S500000_S500000x1_0 seg)
            (broadcastInDim S500000 ![] bcast_S_S500000 (constant (F := F) S_ .f32 0x3F800000#32)))
          (broadcastInDim S262144 ![] bcast_S_S262144 (constant (F := F) S_ .f32 0x3F800000#32)))))

variable (m : (ℓ : Loc nD τ sig) → Buf (Elt F) ℓ)

set_option maxRecDepth 8192 in
set_option maxHeartbeats 1000000 in
/-- The program's result after the host operations that follow the grid: the segment mean of the grid's output
    array over the segment ids as launched. -/
theorem result_eq (c : Dev nD) :
    (Pipeline.afterTail₀ cfgs (dats m) 0 (V0 m) [hostOps1] c main_v23 : S262144x128.Idx → Elt F .f32)
      = pooled (m ((c : Thread nD τ).loc main_arg3)) ((dats m 0 c).arrAt 3 cfg0.N) := by
  have hW : Pipeline.withArrays (cfgs 0).spec c (V0 m c) (fun w => (dats m 0 c).arrAt w (cfgs 0).N) (Proc.devRef .tc main_v11)
      = (dats m 0 c).arrAt 3 cfg0.N :=
    Pipeline.withArrays_arr spec0 launch0.win.arr_inj c _ _ 3
  have hS : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v23) = _
  after_results
  rw [hW, hS]
  rfl

end Cert.KernelIdeal.Hand

end
-- ==== Proof.KernelRun.lean ====
/-
  The kernel's program, run: its result is the segment mean of the decay weights of the argument arrays.

  The generated frame run ends with the result buffer at what the host operations after the grid compute from the
  grid's output array; that is the segment mean of the array (`result_eq`), and the array holds the weights of all
  (event, filter) pairs (`weights_array`). The argument arrays end as launched.
-/
import proofs.«119744_j34857954574530_2_alg».proof.Proof.GridBlocks
import proofs.«119744_j34857954574530_2_alg».proof.Proof.SegmentMean

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Every weakly fair execution ends with the result at the segment mean of the weights and the arguments unchanged. -/
theorem run : θ_run defs (onTc (τ := τ) (main (F := Ideal))) ⟨m, fun _ => 0, ρ⟩ (fun r => ∀ c : Dev nD,
      r.2.mem ((c.tc : Thread nD τ).loc main_v23) = pooled (F := Ideal) (m ((c.tc : Thread nD τ).loc main_arg3)) (weights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v23 (Pipeline.mem_restRefs_of main_v23 (by decide) (by decide))).trans
        ((result_eq m c).trans (congrArg (pooled (F := Ideal) _) (weights_array m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefWeight.lean ====
/-
  The reference's weights stage is the decay weight of its gathered predecessor times, the event times and the
  softplus rates.

  The reference broadcasts the event times [500000] to a column and then along the lanes, broadcasts the rates [128] to
  a row, negates it and broadcasts it down the rows, and then subtracts, multiplies and exponentiates the whole
  [500000, 128] arrays. Read at (i, j) the two broadcasts pick entry `i` of the times and entry `j` of the rates, so
  the stage is `exp (−rate j · (pred (i, j) − time i))`. The gather and the softplus are carried as they stand.
-/
import proofs.«119744_j34857954574530_2_alg».proof.Proof.Gen.ReferenceIdeal.Read
import proofs.«119744_j34857954574530_2_alg».proof.Proof.DecayWeight
import Idealize.ShloMosaic.Lib.ValueIdx

noncomputable section

namespace Cert.ReferenceIdeal.Hand

open Idealize.ShloMosaic Idealize.ShloMosaic.ValueIdx Cert.ReferenceIdeal Cert.ReferenceIdeal.Read Cert.DecayPool

/-- The weights stage, index by index, is `weight` of the gathered times, the event times and the rates. -/
theorem weights_eq (x0 : (⟨S500000, .f32⟩ : BufTy).Contents (Elt Ideal)) (x1 : (⟨S262144, .f32⟩ : BufTy).Contents (Elt Ideal))
    (x2 : (⟨S128, .f32⟩ : BufTy).Contents (Elt Ideal)) (x4 : (⟨S500000x128, .i32⟩ : BufTy).Contents (Elt Ideal)) :
    val_main_v15 (F := Ideal) x0 x1 x2 x4 = weight (val_main_v7 (F := Ideal) x1 x4) x0 (val_main_v0 (F := Ideal) x2) := by
  funext i
  obtain ⟨p, q, rfl⟩ : ∃ (p : Fin 500000) (q : Fin 128), i = ix2 p q := ⟨i 0, i 1, eq_ix2 i⟩
  have et : idx_main_v8 (idx_main_v9 (ix2 p q)) = ix1 p := funext fun a => Fin.ext (by match a with | ⟨0, _⟩ => rfl)
  have er : idx_main_v11 (idx_main_v13 (ix2 p q)) = ix1 q := funext fun a => Fin.ext (by match a with | ⟨0, _⟩ => rfl)
  rw [val_main_v15_apply, val_main_v14_apply, val_main_v13_apply, val_main_v12_apply, val_main_v11_apply,
    val_main_v10_apply, val_main_v9_apply, val_main_v8_apply, et, er, weight_ix2]
  simp only [Ideal.hostUnary_exp_def, Ideal.mulf_def, Ideal.hostNegf_def, Ideal.negf_def, Ideal.subf_def]

end Cert.ReferenceIdeal.Hand

end
-- ==== Proof.SameResult.lean ====
/-
  The reference's result is the same function of the argument arrays as the kernel program's.

  The reference's last stage is the segment mean of its weights stage over the segment ids, and its weights stage is
  the decay weight of its gathered predecessor times, the event times and its softplus rates (`weights_eq`). Its
  gather, its softplus and its segment mean are, operation for operation and constant for constant, the ones the
  kernel's program applies, so the two results are one term.
-/
import proofs.«119744_j34857954574530_2_alg».proof.Proof.RefWeight
import proofs.«119744_j34857954574530_2_alg».proof.Proof.RegionInputs
import proofs.«119744_j34857954574530_2_alg».proof.Proof.SegmentMean
import proofs.«119744_j34857954574530_2_alg».proof.Proof.DecayWeight

noncomputable section

namespace Cert.Proof.Bridge

open Idealize.ShloMosaic Cert.DecayPool

/-- The reference's result: the segment mean, over the ids `x3`, of the decay weights of the times `x1` gathered at
    `x4`, the event times `x0` and the softplus of `x2`. -/
theorem reference_eq (x0 : FVec Ideal Cert.KernelIdeal.S500000 .f32) (x1 : FVec Ideal Cert.KernelIdeal.S262144 .f32)
    (x2 : FVec Ideal Cert.KernelIdeal.S128 .f32) (x3 : IVec Cert.KernelIdeal.S500000 32) (x4 : IVec Cert.KernelIdeal.S500000x128 32) :
    Cert.ReferenceIdeal.Read.val_main_v27 (F := Ideal) x0 x1 x2 x3 x4
      = Cert.KernelIdeal.Hand.pooled (F := Ideal) x3
          (weight (Cert.KernelIdeal.Hand.predTimes (F := Ideal) x1 x4) x0 (Cert.KernelIdeal.Hand.rates (F := Ideal) x2)) := by
  unfold Cert.ReferenceIdeal.Read.val_main_v27 Cert.ReferenceIdeal.Read.val_main_v18
  rw [Cert.ReferenceIdeal.Hand.weights_eq]
  rfl

end Cert.Proof.Bridge

end
-- ==== Proof.lean ====
/-
  Decay-weighted segment pooling: the kernel's program and the reference compute the same array on the extended reals.

  For input event `i`, filter `j`: the predecessor time `P (i, j)` is the output-event time gathered at the pair's
  predecessor id, `T i` is the event's own time, and `R j` is the softplus of the filter's raw decay rate. Both programs
  form the weight `exp (−R j · (P (i, j) − T i))` and then, for every output row `s`, divide the sum of the weights of the
  events whose segment id is `s` by the number of such events (by one if there are none).

  The kernel's program gathers, reshapes the event times to a column and the negated rates to a row on the host, and
  evaluates the weights in a grid of 50 blocks of 10000 rows; the reference broadcasts the same two vectors over the
  whole [500000, 128] array and evaluates the weights in one piece. At every (i, j) the same operations are applied in
  the same order to the same three numbers, so the weights agree entry by entry with no algebraic law and no use of
  the inputs' finiteness; the gather, the softplus and the segment mean are the same operations with the same
  constants on both sides and are carried as named functions, never opened.

  • `DecayWeight`: the weight as one function of `P`, `T`, `R`.
  • `BlockWeight`: what the kernel body stores at one entry of a block.
  • `RegionInputs`: the three arrays the grid reads, as the host operations before it leave them.
  • `GridBlocks`: each block written back is a block of the weights; the 50 blocks tile the array.
  • `SegmentMean`: the host operations after the grid are the segment mean of the grid's output array.
  • `KernelRun`: the kernel program's run, read.
  • `RefWeight`, `SameResult`: the reference's weights stage and result are the same functions.
  The kernel's program and its idealization have the same text, so the idealization claim has no conjunct.
-/
import proofs.«119744_j34857954574530_2_alg».proof.Defs
import proofs.«119744_j34857954574530_2_alg».proof.Proof.Gen.Kernel
import proofs.«119744_j34857954574530_2_alg».proof.Proof.Gen.Kernel.Skeleton
import proofs.«119744_j34857954574530_2_alg».proof.Proof.Gen.Kernel.Launch
import proofs.«119744_j34857954574530_2_alg».proof.Proof.Gen.Kernel.Points
import proofs.«119744_j34857954574530_2_alg».proof.Proof.Gen.Kernel.Frame
import proofs.«119744_j34857954574530_2_alg».proof.Proof.Gen.KernelIdeal
import proofs.«119744_j34857954574530_2_alg».proof.Proof.Gen.KernelIdeal.Skeleton
import proofs.«119744_j34857954574530_2_alg».proof.Proof.Gen.KernelIdeal.Launch
import proofs.«119744_j34857954574530_2_alg».proof.Proof.Gen.KernelIdeal.Points
import proofs.«119744_j34857954574530_2_alg».proof.Proof.Gen.KernelIdeal.Frame
import proofs.«119744_j34857954574530_2_alg».proof.Proof.Gen.ReferenceIdeal
import proofs.«119744_j34857954574530_2_alg».proof.Proof.Gen.Pre_finite_inputs
import proofs.«119744_j34857954574530_2_alg».proof.Proof.Gen.ReferenceIdeal.Run
import proofs.«119744_j34857954574530_2_alg».proof.Proof.Gen.ReferenceIdeal.Read
import proofs.«119744_j34857954574530_2_alg».proof.Proof.KernelRun
import proofs.«119744_j34857954574530_2_alg».proof.Proof.SameResult
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the segment mean of the decay weights. -/
theorem algebraic : Cert.algebraic_KernelIdeal_ReferenceIdeal := by
  intro m ρ m' ρ' _ hagree
  refine ⟨fun c => Cert.KernelIdeal.Hand.pooled (F := Ideal)
      (m ((c.tc : Thread Cert.KernelIdeal.nD Cert.KernelIdeal.τ).loc Cert.KernelIdeal.main_arg3)) (Cert.KernelIdeal.Hand.weights m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v27_eq, a0, a1, a2, a3, a4]
  exact Cert.Proof.Bridge.reference_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
